-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) (main_arg2 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  main_v13
-- ==== Kernel.lean ====
abbrev S8x2048x128 : Shape := ⟨3, ![8, 2048, 128]⟩
abbrev S2x2048x128 : Shape := ⟨3, ![2, 2048, 128]⟩
abbrev S2x128x128 : Shape := ⟨3, ![2, 128, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .local _ .vmem, ⟨0, _⟩ => ⟨S2x2048x128, .f32⟩
  | .local _ .vmem, ⟨1, _⟩ => ⟨S2x2048x128, .f32⟩
  | .local _ .vmem, ⟨2, _⟩ => ⟨S2x2048x128, .f32⟩
  | .local _ .vmem, ⟨3, _⟩ => ⟨S2x2048x128, .f32⟩
  | .local _ .vmem, ⟨4, _⟩ => ⟨S2x2048x128, .f32⟩
  | .local _ .vmem, ⟨5, _⟩ => ⟨S2x2048x128, .f32⟩
  | .local _ .vmem, ⟨6, _⟩ => ⟨S2x2048x128, .f32⟩
  | .local _ .vmem, ⟨7, _⟩ => ⟨S2x2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2x2048x128_S2x2048x128_0_0_0 : ∀ a, (![0, 0, 0] : Fin 3 → Nat) a + S2x2048x128.size a ≤ S2x2048x128.size a
  h_S2x2048x128 : 0 < S2x2048x128.numel
  dot_S2x2048x128_S2x2048x128_S2x128x128_1_1_2_2_0_0_wf : DotDims.WF S2x2048x128 S2x2048x128 S2x128x128 [1] [1] [2] [2] [0] [0]
  dot_S2x2048x128_S2x128x128_S2x2048x128_2_1_1_2_0_0_wf : DotDims.WF S2x2048x128 S2x128x128 S2x2048x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x128.size a ≤ S8x2048x128.size a
  hwx0_0 : ∀ i : grid0.Coords, EltTy.bits .f32 = 32 ∨ (Rect.block (s := S8x2048x128) S2x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x128.size a ≤ S8x2048x128.size a
  hwx0_1 : ∀ i : grid0.Coords, EltTy.bits .f32 = 32 ∨ (Rect.block (s := S8x2048x128) S2x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048x128.size a ≤ S8x2048x128.size a
  hwx0_2 : ∀ i : grid0.Coords, EltTy.bits .f32 = 32 ∨ (Rect.block (s := S8x2048x128) S2x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2048x128.size a ≤ S8x2048x128.size a
  hwx0_3 : ∀ i : grid0.Coords, EltTy.bits .f32 = 32 ∨ (Rect.block (s := S8x2048x128) S2x2048x128.size (cc0_transform_3 i) (hinb0_3 i)).WholeWords (EltTy.packing .f32)

variable [Facts₀]

def dot_S2x2048x128_S2x2048x128_S2x128x128_1_1_2_2_0_0 : DotDims S2x2048x128 S2x2048x128 S2x128x128 where
  lhsContracting := [1]
  rhsContracting := [1]
  lhsNonContracting := [2]
  rhsNonContracting := [2]
  lhsBatch := [0]
  rhsBatch := [0]
  wf := dot_S2x2048x128_S2x2048x128_S2x128x128_1_1_2_2_0_0_wf
def dot_S2x2048x128_S2x128x128_S2x2048x128_2_1_1_2_0_0 : DotDims S2x2048x128 S2x128x128 S2x2048x128 where
  lhsContracting := [2]
  rhsContracting := [1]
  lhsNonContracting := [1]
  rhsNonContracting := [2]
  lhsBatch := [0]
  rhsBatch := [0]
  wf := dot_S2x2048x128_S2x128x128_S2x2048x128_2_1_1_2_0_0_wf

abbrev win0_0 : Pipeline.Window sig grid0 :=
  Pipeline.Window.ofSpec (Memref.whole main_arg0) S2x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.KernelPayload.lean ====
/-
  What the kernel's body stores, read at one entry of its block.

  The body loads a block of q, k and v of shape [2, 2048, 128] (two batches), forms per batch the 128×128 product of kᵀ
  and v (a contraction over the 2048 positions), scales it by the word of 0.125, and multiplies q into the result (a
  contraction over the 128 features). At the exact instance a product into a zero accumulator is the plain sum of the
  operands' products over the contraction index, so at the entry (b, s, d) the stored value is

      Σ_e q (b, s, e) · ((Σ_t k (b, t, e) · v (b, t, d)) · 0.125).

  The work here is the index bookkeeping of the two batched products: which coordinate of each operand is the batch,
  which is carried to the output, and which is summed over.
-/
import proofs.«110598_j39676907883207_2_alg».proof.Proof.Gen.KernelIdeal.Skeleton
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx
open scoped BigOperators

/-! ## The product of kᵀ and v: out (b, e, d) = Σ_t k (b, t, e) · v (b, t, d) -/

/-- The dimension record of the first product: both operands contracted on their position axis, batch axis 0. -/
abbrev dKV : DotDims S2x2048x128 S2x2048x128 S2x128x128 := dot_S2x2048x128_S2x2048x128_S2x128x128_1_1_2_2_0_0

theorem kv_lhs_batch (j : S2x128x128.Idx) (r : (dKV).contr.Idx) : (DotDims.lhsIdx dKV j r 0).val = (j 0).val := by
  unfold DotDims.lhsIdx
  rw [dif_pos (show (0 : Fin S2x2048x128.rank) ∈ (dKV).lhsBatch by decide)]
  rfl
theorem kv_lhs_sum (j : S2x128x128.Idx) (r : (dKV).contr.Idx) : (DotDims.lhsIdx dKV j r 1).val = (r ⟨0, by decide⟩).val :=
  DotDims.lhsIdx_val_of_single dKV rfl j r
theorem kv_lhs_free (j : S2x128x128.Idx) (r : (dKV).contr.Idx) : (DotDims.lhsIdx dKV j r 2).val = (j 1).val := by
  unfold DotDims.lhsIdx
  rw [dif_neg (show ¬(2 : Fin S2x2048x128.rank) ∈ (dKV).lhsBatch by decide), dif_pos (show (2 : Fin S2x2048x128.rank) ∈ (dKV).lhsNonContracting by decide)]
  rfl
theorem kv_rhs_batch (j : S2x128x128.Idx) (r : (dKV).contr.Idx) : (DotDims.rhsIdx dKV j r 0).val = (j 0).val := by
  unfold DotDims.rhsIdx
  rw [dif_pos (show (0 : Fin S2x2048x128.rank) ∈ (dKV).rhsBatch by decide)]
  rfl
theorem kv_rhs_sum (j : S2x128x128.Idx) (r : (dKV).contr.Idx) : (DotDims.rhsIdx dKV j r 1).val = (r ⟨0, by decide⟩).val :=
  DotDims.rhsIdx_val_of_single dKV rfl j r
theorem kv_rhs_free (j : S2x128x128.Idx) (r : (dKV).contr.Idx) : (DotDims.rhsIdx dKV j r 2).val = (j 2).val := by
  unfold DotDims.rhsIdx
  rw [dif_neg (show ¬(2 : Fin S2x2048x128.rank) ∈ (dKV).rhsBatch by decide), dif_pos (show (2 : Fin S2x2048x128.rank) ∈ (dKV).rhsNonContracting by decide)]
  rfl

/-- The first product into a zero accumulator, at (b, e, d): the sum over the positions t. -/
theorem kv_apply (x1 x2 : FVec Ideal S2x2048x128 .f32) (b : Fin 2) (e d : Fin 128) :
    matmul dKV (some .fp32) x1 x2 (constant (F := Ideal) S2x128x128 .f32 0x00000000#32) (ix3 b e d)
      = ∑ t : Fin 2048, x1 (ix3 b t e) * x2 (ix3 b t d) := by
  simp only [matmul]
  rw [Ideal.matmul_constant_zero_apply, ← Equiv.sum_comp (contrEquiv1 dKV 2048 rfl rfl).symm]
  refine Finset.sum_congr rfl fun t _ => ?_
  have ht := contrEquiv1_symm_val dKV 2048 rfl rfl t
  have el : DotDims.lhsIdx dKV (ix3 b e d) ((contrEquiv1 dKV 2048 rfl rfl).symm t) = ix3 b t e := funext fun a => Fin.ext (by
    match a with
    | ⟨0, _⟩ => exact kv_lhs_batch _ _
    | ⟨1, _⟩ => exact (kv_lhs_sum _ _).trans ht
    | ⟨2, _⟩ => exact kv_lhs_free _ _)
  have er : DotDims.rhsIdx dKV (ix3 b e d) ((contrEquiv1 dKV 2048 rfl rfl).symm t) = ix3 b t d := funext fun a => Fin.ext (by
    match a with
    | ⟨0, _⟩ => exact kv_rhs_batch _ _
    | ⟨1, _⟩ => exact (kv_rhs_sum _ _).trans ht
    | ⟨2, _⟩ => exact kv_rhs_free _ _)
  rw [el, er]

/-! ## The product of q and the scaled matrix: out (b, s, d) = Σ_e q (b, s, e) · M (b, e, d) -/

/-- The dimension record of the second product: q contracted on its feature axis, the matrix on its row axis, batch axis 0. -/
abbrev dQM : DotDims S2x2048x128 S2x128x128 S2x2048x128 := dot_S2x2048x128_S2x128x128_S2x2048x128_2_1_1_2_0_0

theorem qm_lhs_batch (j : S2x2048x128.Idx) (r : (dQM).contr.Idx) : (DotDims.lhsIdx dQM j r 0).val = (j 0).val := by
  unfold DotDims.lhsIdx
  rw [dif_pos (show (0 : Fin S2x2048x128.rank) ∈ (dQM).lhsBatch by decide)]
  rfl
theorem qm_lhs_free (j : S2x2048x128.Idx) (r : (dQM).contr.Idx) : (DotDims.lhsIdx dQM j r 1).val = (j 1).val := by
  unfold DotDims.lhsIdx
  rw [dif_neg (show ¬(1 : Fin S2x2048x128.rank) ∈ (dQM).lhsBatch by decide), dif_pos (show (1 : Fin S2x2048x128.rank) ∈ (dQM).lhsNonContracting by decide)]
  rfl
theorem qm_lhs_sum (j : S2x2048x128.Idx) (r : (dQM).contr.Idx) : (DotDims.lhsIdx dQM j r 2).val = (r ⟨0, by decide⟩).val :=
  DotDims.lhsIdx_val_of_single dQM rfl j r
theorem qm_rhs_batch (j : S2x2048x128.Idx) (r : (dQM).contr.Idx) : (DotDims.rhsIdx dQM j r 0).val = (j 0).val := by
  unfold DotDims.rhsIdx
  rw [dif_pos (show (0 : Fin S2x128x128.rank) ∈ (dQM).rhsBatch by decide)]
  rfl
theorem qm_rhs_sum (j : S2x2048x128.Idx) (r : (dQM).contr.Idx) : (DotDims.rhsIdx dQM j r 1).val = (r ⟨0, by decide⟩).val :=
  DotDims.rhsIdx_val_of_single dQM rfl j r
theorem qm_rhs_free (j : S2x2048x128.Idx) (r : (dQM).contr.Idx) : (DotDims.rhsIdx dQM j r 2).val = (j 2).val := by
  unfold DotDims.rhsIdx
  rw [dif_neg (show ¬(2 : Fin S2x128x128.rank) ∈ (dQM).rhsBatch by decide), dif_pos (show (2 : Fin S2x128x128.rank) ∈ (dQM).rhsNonContracting by decide)]
  rfl

/-- The second product into a zero accumulator, at (b, s, d): the sum over the features e. -/
theorem qm_apply (x0 : FVec Ideal S2x2048x128 .f32) (mat : FVec Ideal S2x128x128 .f32) (b : Fin 2) (s : Fin 2048) (d : Fin 128) :
    matmul dQM (some .fp32) x0 mat (constant (F := Ideal) S2x2048x128 .f32 0x00000000#32) (ix3 b s d)
      = ∑ e : Fin 128, x0 (ix3 b s e) * mat (ix3 b e d) := by
  simp only [matmul]
  rw [Ideal.matmul_constant_zero_apply, ← Equiv.sum_comp (contrEquiv1 dQM 128 rfl rfl).symm]
  refine Finset.sum_congr rfl fun e _ => ?_
  have he := contrEquiv1_symm_val dQM 128 rfl rfl e
  have el : DotDims.lhsIdx dQM (ix3 b s d) ((contrEquiv1 dQM 128 rfl rfl).symm e) = ix3 b s e := funext fun a => Fin.ext (by
    match a with
    | ⟨0, _⟩ => exact qm_lhs_batch _ _
    | ⟨1, _⟩ => exact qm_lhs_free _ _
    | ⟨2, _⟩ => exact (qm_lhs_sum _ _).trans he)
  have er : DotDims.rhsIdx dQM (ix3 b s d) ((contrEquiv1 dQM 128 rfl rfl).symm e) = ix3 b e d := funext fun a => Fin.ext (by
    match a with
    | ⟨0, _⟩ => exact qm_rhs_batch _ _
    | ⟨1, _⟩ => exact (qm_rhs_sum _ _).trans he
    | ⟨2, _⟩ => exact qm_rhs_free _ _)
  rw [el, er]

/-! ## The stored value at an entry -/

/-- The body's stored value at the entry (b, s, d) of its block, from the loaded blocks of q, k and v. -/
theorem pay_apply (x0 x1 x2 : Vec Ideal S2x2048x128 .f32) (b : Fin 2) (s : Fin 2048) (d : Fin 128) :
    k0_pay1 (F := Ideal) x0 x1 x2 (ix3 b s d)
      = ∑ e : Fin 128, x0 (ix3 b s e)
          * ((∑ t : Fin 2048, x1 (ix3 b t e) * x2 (ix3 b t d)) * Ideal.ofBits .f32 0x3E000000#32) := by
  unfold k0_pay1
  refine (qm_apply x0 _ b s d).trans ?_
  refine Finset.sum_congr rfl fun e _ => ?_
  refine congrArg (x0 (ix3 b s e) * ·) ?_
  show (matmul dKV (some .fp32) x1 x2 (constant (F := Ideal) S2x128x128 .f32 0x00000000#32) (ix3 b e d)) * Ideal.ofBits .f32 0x3E000000#32 = _
  rw [kv_apply]

end Cert.KernelIdeal.Payload

end
-- ==== Proof.AttnSpec.lean ====
/-
  The kernel's result as one function of the three argument arrays.

  The arrays are q, k, v of shape [8, 2048, 128] (batch b, position s or t, feature e or d). Per batch the kernel first
  forms the small 128×128 product of kᵀ and v, scales it by the word of 0.125, and then multiplies q into it:

      M (b, e, d)   = (Σ_t k (b, t, e) · v (b, t, d)) · 0.125
      out (b, s, d) = Σ_e q (b, s, e) · M (b, e, d).
-/
import Idealize.ShloMosaic.PureOps.Ideal
import Idealize.ShloMosaic.Lib.ValueIdx

noncomputable section

namespace Cert.AttnSpec

open Idealize.ShloMosaic Idealize.ShloMosaic.ValueIdx
open scoped BigOperators

/-- The shape of q, k, v and of the result. -/
abbrev SArr : Shape := ⟨3, ![8, 2048, 128]⟩

/-- The scaled product of kᵀ and v of batch `b`, at (e, d). -/
def scaledKV (k v : SArr.Idx → EReal) (b : Fin 8) (e d : Fin 128) : EReal :=
  (∑ t : Fin 2048, k (ix3 b t e) * v (ix3 b t d)) * Ideal.ofBits .f32 0x3E000000#32

/-- The result array: q times the scaled product, batch by batch. -/
def attnOut (q k v : SArr.Idx → EReal) : SArr.Idx → EReal := fun i =>
  ∑ e : Fin 128, q (ix3 (i 0) (i 1) e) * scaledKV k v (i 0) e (i 2)

end Cert.AttnSpec

end
-- ==== Proof.KernelArray.lean ====
/-
  From the kernel's blocks to its whole result array.

  The grid has four points; at point t every window (q, k, v and the result) holds the block of batches 2t and 2t + 1,
  all positions and all features: the block index is (t, 0, 0) and the block shape [2, 2048, 128]. So entry (b, s, d) of
  a block at point t is entry (2t + b, s, d) of its array. The body's stored value at (b, s, d) reads q, k and v only at
  batch b of their blocks, that is at batch 2t + b of the arrays — the same batch the result entry belongs to. Hence
  what point t writes back is exactly block t of the one whole-array function `attnOut` of the three argument arrays.
  The four blocks tile the eight batches (batch n is in the block of point n / 2), so the result array ends holding
  `attnOut` everywhere. No finiteness is needed for this part: it is index arithmetic only.
-/
import proofs.«110598_j39676907883207_2_alg».proof.Proof.Gen.KernelIdeal.Value
import proofs.«110598_j39676907883207_2_alg».proof.Proof.KernelPayload
import proofs.«110598_j39676907883207_2_alg».proof.Proof.AttnSpec
import Idealize.ShloMosaic.Lib.Pipeline.Value

noncomputable section

namespace Cert.KernelIdeal.AttnArray

open Cert.KernelIdeal Cert.KernelIdeal.Gen Idealize.ShloMosaic Idealize.ShloMosaic.TcCoe Idealize.SL.Sem
open Idealize.ShloMosaic.ValueIdx Cert.AttnSpec Cert.KernelIdeal.Payload
open Idealize.ShloMosaic.Pipeline (Dat)
open scoped BigOperators

variable (m : (ℓ : Loc nD τ sig) → Buf (Elt Ideal) ℓ) (ρ : Dev nD → PrngReg)

/-- The body's one rectangle starts at the origin of its block. -/
theorem zero_origin : (![0, 0, 0] : Fin 3 → Nat) = fun _ => 0 := funext fun a => by fin_cases a <;> rfl

/-- Every window's block index at point t is (t, 0, 0) (decided over the four points). -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The batch of the arrays that batch b of the block at point t is: 2t + b. -/
def batchOf (t : Fin cfg0.N) (b : Fin 2) : Fin 8 :=
  ⟨2 * t.val + b.val, by have h : t.val < grid0.N := t.isLt; rw [N_0] at h; have := b.isLt; omega⟩

/-- q's block at point t, entry (b, s, e), is q at (2t + b, s, e). -/
theorem qblk_apply (c : Dev nD) (t : Fin cfg0.N) (b : Fin 2) (s : Fin 2048) (e : Fin 128) :
    iblk m c 0 t (ix3 b s e) = V m c main_arg0 (ix3 (batchOf t b) s e) := by
  obtain ⟨⟨h0, h1, h2⟩, -⟩ := index_facts t
  show V m c main_arg0 (((cfg0.win 0).blk t).view.emb (ix3 b s e)) = V m c main_arg0 (ix3 (batchOf t b) s e)
  refine congrArg _ (funext fun a => Fin.ext ?_)
  match a with
  | ⟨0, _⟩ => show win0_0.index t (0 : Fin 3) * 2 + 1 * b.val = 2 * t.val + b.val; rw [h0]; omega
  | ⟨1, _⟩ => show win0_0.index t (1 : Fin 3) * 2048 + 1 * s.val = s.val; rw [h1]; omega
  | ⟨2, _⟩ => show win0_0.index t (2 : Fin 3) * 128 + 1 * e.val = e.val; rw [h2]; omega

/-- k's block at point t, entry (b, s, e), is k at (2t + b, s, e). -/
theorem kblk_apply (c : Dev nD) (t : Fin cfg0.N) (b : Fin 2) (s : Fin 2048) (e : Fin 128) :
    iblk m c 1 t (ix3 b s e) = V m c main_arg1 (ix3 (batchOf t b) s e) := by
  obtain ⟨-, ⟨h0, h1, h2⟩, -⟩ := index_facts t
  show V m c main_arg1 (((cfg0.win 1).blk t).view.emb (ix3 b s e)) = V m c main_arg1 (ix3 (batchOf t b) s e)
  refine congrArg _ (funext fun a => Fin.ext ?_)
  match a with
  | ⟨0, _⟩ => show win0_1.index t (0 : Fin 3) * 2 + 1 * b.val = 2 * t.val + b.val; rw [h0]; omega
  | ⟨1, _⟩ => show win0_1.index t (1 : Fin 3) * 2048 + 1 * s.val = s.val; rw [h1]; omega
  | ⟨2, _⟩ => show win0_1.index t (2 : Fin 3) * 128 + 1 * e.val = e.val; rw [h2]; omega

/-- v's block at point t, entry (b, s, e), is v at (2t + b, s, e). -/
theorem vblk_apply (c : Dev nD) (t : Fin cfg0.N) (b : Fin 2) (s : Fin 2048) (e : Fin 128) :
    iblk m c 2 t (ix3 b s e) = V m c main_arg2 (ix3 (batchOf t b) s e) := by
  obtain ⟨-, -, ⟨h0, h1, h2⟩, -⟩ := index_facts t
  show V m c main_arg2 (((cfg0.win 2).blk t).view.emb (ix3 b s e)) = V m c main_arg2 (ix3 (batchOf t b) s e)
  refine congrArg _ (funext fun a => Fin.ext ?_)
  match a with
  | ⟨0, _⟩ => show win0_2.index t (0 : Fin 3) * 2 + 1 * b.val = 2 * t.val + b.val; rw [h0]; omega
  | ⟨1, _⟩ => show win0_2.index t (1 : Fin 3) * 2048 + 1 * s.val = s.val; rw [h1]; omega
  | ⟨2, _⟩ => show win0_2.index t (2 : Fin 3) * 128 + 1 * e.val = e.val; rw [h2]; omega

/-- Entry (b, s, d) of the result's block at point t sits at (2t + b, s, d) of the result array. -/
theorem oblk_emb (t : Fin cfg0.N) (b : Fin 2) (s : Fin 2048) (d : Fin 128) :
    ((cfg0.win 3).blk t).view.emb (ix3 b s d) = ix3 (batchOf t b) s d := by
  obtain ⟨-, -, -, ⟨h0, h1, h2⟩⟩ := index_facts t
  refine funext fun a => Fin.ext ?_
  match a with
  | ⟨0, _⟩ => show win0_3.index t (0 : Fin 3) * 2 + 1 * b.val = 2 * t.val + b.val; rw [h0]; omega
  | ⟨1, _⟩ => show win0_3.index t (1 : Fin 3) * 2048 + 1 * s.val = s.val; rw [h1]; omega
  | ⟨2, _⟩ => show win0_3.index t (2 : Fin 3) * 128 + 1 * d.val = d.val; rw [h2]; omega

/-- What point t writes back is block t of `attnOut` of the three argument arrays. -/
theorem flushed_eq (c : Dev nD) (t : Fin cfg0.N) :
    (dats m 0 c).flushed 3 t = ((cfg0.win 3).blk t).view.read (Elt Ideal)
      (attnOut (V m c main_arg0) (V m c main_arg1) (V m c main_arg2)) := by
  rw [Value.flushed3]
  unfold out0_3
  rw [View.canon_unit_zero zero_origin]
  simp only [View.ld_unit_zero (S := S2x2048x128) zero_origin]
  funext j
  obtain ⟨b, s, d, rfl⟩ : ∃ (b : Fin 2) (s : Fin 2048) (d : Fin 128), j = ix3 b s d := ⟨j 0, j 1, j 2, eq_ix3 j⟩
  show k0_pay1 (iblk m c 0 t) (iblk m c 1 t) (iblk m c 2 t) (ix3 b s d)
    = attnOut (V m c main_arg0) (V m c main_arg1) (V m c main_arg2) (((cfg0.win 3).blk t).view.emb (ix3 b s d))
  rw [oblk_emb]
  refine (pay_apply (iblk m c 0 t) (iblk m c 1 t) (iblk m c 2 t) b s d).trans ?_
  simp only [qblk_apply, kblk_apply, vblk_apply]
  rfl

/-- An index of the result array is in point t's block iff each coordinate is in the block's range on its axis. -/
theorem mem_blk (t : Fin cfg0.N) (i : S8x2048x128.Idx) :
    i ∈ ((cfg0.win 3).blk t).view.set ↔ ∀ a : Fin 3, win0_3.index t a * S2x2048x128.size a ≤ (i a).val
      ∧ (i a).val < win0_3.index t a * S2x2048x128.size a + S2x2048x128.size a := by
  show i ∈ ((View.whole main_v0).slice (win0_3.rect t)).set ↔ _
  rw [View.set_slice_whole, Rect.mem_set_unit]
  exact Iff.rfl

/-- Every index of the result array is in some point's block: batch n is written at point n / 2. -/
theorem cover (i : S8x2048x128.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  have hN : grid0.N = 4 := N_0
  have ht : (i 0).val / 2 < grid0.N := by rw [hN]; omega
  obtain ⟨-, -, -, ⟨h0, h1, h2⟩⟩ := index_facts ⟨(i 0).val / 2, ht⟩
  refine ⟨⟨(i 0).val / 2, ht⟩, flush0_3 _, ?_⟩
  rw [mem_blk]
  intro a
  match a with
  | ⟨0, _⟩ =>
    show win0_3.index ⟨(i 0).val / 2, ht⟩ (0 : Fin 3) * 2 ≤ (i 0).val ∧ (i 0).val < win0_3.index ⟨(i 0).val / 2, ht⟩ (0 : Fin 3) * 2 + 2
    rw [h0]; show (i 0).val / 2 * 2 ≤ (i 0).val ∧ (i 0).val < (i 0).val / 2 * 2 + 2; omega
  | ⟨1, _⟩ =>
    show win0_3.index ⟨(i 0).val / 2, ht⟩ (1 : Fin 3) * 2048 ≤ (i 1).val ∧ (i 1).val < win0_3.index ⟨(i 0).val / 2, ht⟩ (1 : Fin 3) * 2048 + 2048
    rw [h1]; omega
  | ⟨2, _⟩ =>
    show win0_3.index ⟨(i 0).val / 2, ht⟩ (2 : Fin 3) * 128 ≤ (i 2).val ∧ (i 2).val < win0_3.index ⟨(i 0).val / 2, ht⟩ (2 : Fin 3) * 128 + 128
    rw [h2]; omega

/-- The result array after the run is `attnOut` of the three argument arrays. -/
theorem final (c : Dev nD) :
    (dats m 0 c).arrAt 3 cfg0.N = attnOut (V m c main_arg0) (V m c main_arg1) (V m c main_arg2) :=
  (dats m 0 c).arrAt_eq_of_cover 3 _ (fun t _ => flushed_eq m c t) cover

/-- The kernel's run: it terminates with the result array at `attnOut` of the arguments and the arguments unchanged. -/
theorem run : θ_run defs (onTc (τ := τ) (main (F := Ideal))) ⟨m, fun _ => 0, ρ⟩ fun r => ∀ c : Dev nD,
      r.2.mem ((c : Thread nD τ).loc main_v0)
        = attnOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AttnArray

end
-- ==== Proof.LibFiniteSums.lean ====
/-
  General laws for finite sums of REAL entries inside the extended reals.

  On the extended reals multiplication does not distribute over addition at the infinities, so a scale cannot be
  moved across a sum in general. For sums whose entries are all real it can: the sum of coerced reals is the coerced
  real sum, and there the ring laws apply. These are the laws behind folding a per-channel scale (a batch-norm
  scale, a gate) into the weights of a linear map, and behind packing two images side by side with block-diagonal
  weights: the off-diagonal blocks contribute 0 · (a real) = 0.
-/
import Mathlib.Data.EReal.Operations
import Mathlib.Algebra.BigOperators.Ring.Finset
import Mathlib.Algebra.BigOperators.Fin
import Mathlib.Algebra.BigOperators.Field
import Mathlib.Tactic.FinCases
import Mathlib.Tactic.Ring

noncomputable section

namespace Cert.LibFiniteSums

open scoped BigOperators

variable {ι κ : Type*}

/-- The sum of coerced reals is the coerced real sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, inside the extended reals, is a real. -/
theorem coe_sum_mul (s : Finset ι) (x w : ι → ℝ) :
    (∑ i ∈ s, ((x i : ℝ) : EReal) * ((w i : ℝ) : EReal)) = ((∑ i ∈ s, x i * w i : ℝ) : EReal) := by
  rw [← coe_sum]; exact Finset.sum_congr rfl fun i _ => (EReal.coe_mul _ _).symm

/-- A scale applied AFTER a contraction of reals is the same contraction with the scale folded into the weights:
    (Σ_i x_i w_i) · s = Σ_i x_i (w_i s). -/
theorem sum_mul_scale (s : Finset ι) (x w : ι → ℝ) (c : ℝ) :
    (∑ i ∈ s, ((x i : ℝ) : EReal) * ((w i : ℝ) : EReal)) * ((c : ℝ) : EReal)
      = ∑ i ∈ s, ((x i : ℝ) : EReal) * (((w i : ℝ) : EReal) * ((c : ℝ) : EReal)) := by
  rw [coe_sum_mul, ← EReal.coe_mul, Finset.sum_mul]
  rw [show (∑ i ∈ s, ((x i : ℝ) : EReal) * (((w i : ℝ) : EReal) * ((c : ℝ) : EReal)))
      = ∑ i ∈ s, ((x i * (w i * c) : ℝ) : EReal) from
    Finset.sum_congr rfl fun i _ => by rw [← EReal.coe_mul, ← EReal.coe_mul], coe_sum]
  congr 1
  exact Finset.sum_congr rfl fun i _ => by ring

/-- The same with a bias added on both sides (the folded batch-norm form). -/
theorem sum_mul_scale_add (s : Finset ι) (x w : ι → ℝ) (c b : ℝ) :
    (∑ i ∈ s, ((x i : ℝ) : EReal) * ((w i : ℝ) : EReal)) * ((c : ℝ) : EReal) + ((b : ℝ) : EReal)
      = (∑ i ∈ s, ((x i : ℝ) : EReal) * (((w i : ℝ) : EReal) * ((c : ℝ) : EReal))) + ((b : ℝ) : EReal) := by
  rw [sum_mul_scale]

/-- A gate folded into a contraction: Σ_i (w_i · c · g_i) · z_i = (Σ_i (z_i g_i) w_i) · c. -/
theorem sum_gate_fold (s : Finset ι) (z g w : ι → ℝ) (c : ℝ) :
    (∑ i ∈ s, (((w i : ℝ) : EReal) * ((c : ℝ) : EReal) * ((g i : ℝ) : EReal)) * ((z i : ℝ) : EReal))
      = (∑ i ∈ s, (((z i : ℝ) : EReal) * ((g i : ℝ) : EReal)) * ((w i : ℝ) : EReal)) * ((c : ℝ) : EReal) := by
  rw [show (∑ i ∈ s, (((w i : ℝ) : EReal) * ((c : ℝ) : EReal) * ((g i : ℝ) : EReal)) * ((z i : ℝ) : EReal))
      = ∑ i ∈ s, ((w i * c * g i * z i : ℝ) : EReal) from
    Finset.sum_congr rfl fun i _ => by rw [← EReal.coe_mul, ← EReal.coe_mul, ← EReal.coe_mul], coe_sum]
  rw [show (∑ i ∈ s, (((z i : ℝ) : EReal) * ((g i : ℝ) : EReal)) * ((w i : ℝ) : EReal))
      = ∑ i ∈ s, ((z i * g i * w i : ℝ) : EReal) from
    Finset.sum_congr rfl fun i _ => by rw [← EReal.coe_mul, ← EReal.coe_mul], coe_sum, ← EReal.coe_mul, Finset.sum_mul]
  congr 1
  exact Finset.sum_congr rfl fun i _ => by ring

/-- Two images packed side by side with block-diagonal weights: contracting the pair index against the Kronecker
    delta leaves the one image's contraction. -/
theorem sum_block_diag [Fintype ι] (p : Fin 2) (x : Fin 2 → ι → ℝ) (w : ι → ℝ) :
    (∑ q : Fin 2, ∑ i : ι, ((x q i : ℝ) : EReal) * (((if q = p then (1 : ℝ) else 0 : ℝ) : EReal) * ((w i : ℝ) : EReal)))
      = ∑ i : ι, ((x p i : ℝ) : EReal) * ((w i : ℝ) : EReal) := by
  rw [show (∑ q : Fin 2, ∑ i : ι, ((x q i : ℝ) : EReal) * (((if q = p then (1 : ℝ) else 0 : ℝ) : EReal) * ((w i : ℝ) : EReal)))
      = ∑ q : Fin 2, ((∑ i : ι, x q i * ((if q = p then (1 : ℝ) else 0) * w i) : ℝ) : EReal) from
    Finset.sum_congr rfl fun q _ => by
      rw [← coe_sum]; exact Finset.sum_congr rfl fun i _ => by rw [← EReal.coe_mul, ← EReal.coe_mul]]
  rw [coe_sum, coe_sum_mul]
  congr 1
  rw [Fin.sum_univ_two]
  fin_cases p <;> simp

/-- The mean over a rectangle taken at once is the mean of the row means (all entries real):
    (Σ_h Σ_w z) / (H·W) = (Σ_h (Σ_w z) / W) / H. -/
theorem mean_of_row_means {H W : ℕ} (z : Fin H → Fin W → ℝ) (hH : (H : ℝ) ≠ 0) (hW : (W : ℝ) ≠ 0) :
    (∑ h, ∑ w, z h w) / ((H : ℝ) * (W : ℝ)) = (∑ h, (∑ w, z h w) / (W : ℝ)) / (H : ℝ) := by
  rw [← Finset.sum_div, div_div, mul_comm]

end Cert.LibFiniteSums

end
-- ==== Proof.ReassocLaw.lean ====
/-
  Re-association of a product of three matrices with a scalar in between, entry by entry, for real entries.

  Fix a row q (indexed by e), a matrix k (indexed by t and e) and a column v (indexed by t), all real, and a real
  scale c. Then

      Σ_e q_e · ((Σ_t k_te · v_t) · c)  =  Σ_t ((Σ_e q_e · k_te) · c) · v_t.

  Both sides are c · Σ_e Σ_t q_e k_te v_t: the left one contracts t first and scales the small product, the right one
  contracts e first and scales the large product. On the extended reals the step needs the entries to be real
  (distributivity fails at the infinities); with real entries every sum is a coerced real sum and the identity is
  the ring's.
-/
import proofs.«110598_j39676907883207_2_alg».proof.Proof.LibFiniteSums

noncomputable section

namespace Cert.ReassocLaw

open scoped BigOperators
open Cert.LibFiniteSums

variable {E T : Type*} [Fintype E] [Fintype T]

/-- The identity over the reals: exchange the two sums and move the scale. -/
theorem real_reassoc (q : E → ℝ) (k : T → E → ℝ) (v : T → ℝ) (c : ℝ) :
    (∑ e, q e * ((∑ t, k t e * v t) * c)) = ∑ t, ((∑ e, q e * k t e) * c) * v t := by
  have hl : ∀ e, q e * ((∑ t, k t e * v t) * c) = ∑ t, q e * k t e * v t * c := fun e => by
    rw [Finset.sum_mul, Finset.mul_sum]; exact Finset.sum_congr rfl fun t _ => by ring
  have hr : ∀ t, ((∑ e, q e * k t e) * c) * v t = ∑ e, q e * k t e * v t * c := fun t => by
    rw [Finset.sum_mul, Finset.sum_mul]; exact Finset.sum_congr rfl fun e _ => by ring
  rw [Finset.sum_congr rfl fun e _ => hl e, Finset.sum_congr rfl fun t _ => hr t, Finset.sum_comm]

/-- The same inside the extended reals, for coerced real entries. -/
theorem ereal_reassoc (q : E → ℝ) (k : T → E → ℝ) (v : T → ℝ) (c : ℝ) :
    (∑ e, ((q e : ℝ) : EReal) * ((∑ t, ((k t e : ℝ) : EReal) * ((v t : ℝ) : EReal)) * ((c : ℝ) : EReal)))
      = ∑ t, ((∑ e, ((q e : ℝ) : EReal) * ((k t e : ℝ) : EReal)) * ((c : ℝ) : EReal)) * ((v t : ℝ) : EReal) := by
  have hl : ∀ e, ((q e : ℝ) : EReal) * ((∑ t, ((k t e : ℝ) : EReal) * ((v t : ℝ) : EReal)) * ((c : ℝ) : EReal))
      = ((q e * ((∑ t, k t e * v t) * c) : ℝ) : EReal) := fun e => by
    rw [coe_sum_mul, ← EReal.coe_mul, ← EReal.coe_mul]
  have hr : ∀ t, ((∑ e, ((q e : ℝ) : EReal) * ((k t e : ℝ) : EReal)) * ((c : ℝ) : EReal)) * ((v t : ℝ) : EReal)
      = ((((∑ e, q e * k t e) * c) * v t : ℝ) : EReal) := fun t => by
    rw [coe_sum_mul, ← EReal.coe_mul, ← EReal.coe_mul]
  rw [Finset.sum_congr rfl fun e _ => hl e, Finset.sum_congr rfl fun t _ => hr t, coe_sum, coe_sum, real_reassoc]

end Cert.ReassocLaw

end
-- ==== Proof.ScaleConsts.lean ====
/-
  The two float words the programs spell for the attention scale, as the reals they denote.

  The kernel multiplies by the word of 0.125 and the reference divides by the word of 8.0. Both are exact binary
  fractions: 0.125 = 2⁻³ and 8 = 2³, so at the exact instance the first denotes the real 1/8 and the second the real 8,
  and dividing by 8 is multiplying by 1/8 on every extended real.
-/
import Idealize.ShloMosaic.PureOps.Ideal

noncomputable section

namespace Cert.ScaleConsts

open Idealize.ShloMosaic

/-- The word of 0.125 denotes the real 1/8. -/
theorem ofBits_eighth : Ideal.ofBits .f32 0x3E000000#32 = (((1 / 8 : ℝ)) : EReal) := by
  simp [Ideal.ofBits, Ideal.ieee, -EReal.coe_mul]; norm_num

/-- The word of 8.0 denotes the real 8. -/
theorem ofBits_eight : Ideal.ofBits .f32 0x41000000#32 = ((8 : ℝ) : EReal) := by
  simp [Ideal.ofBits, Ideal.ieee, -EReal.coe_mul]; norm_num

/-- Dividing by the word of 8.0 is multiplying by the word of 0.125, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

end Cert.ScaleConsts

end
-- ==== Proof.RefBridge.lean ====
/-
  The reference computes the same array as the kernel, for real entries.

  The reference forms the large 2048×2048 score matrix of q and k per batch, divides it by 8, and multiplies v into it:

      ref (b, s, d) = Σ_t ((Σ_e q (b, s, e) · k (b, t, e)) / 8) · v (b, t, d).

  Dividing by 8 is multiplying by 0.125 (both exact binary fractions). What is left between this and the kernel's

      out (b, s, d) = Σ_e q (b, s, e) · ((Σ_t k (b, t, e) · v (b, t, d)) · 0.125)

  is the order of the two contractions and the place of the scale: the re-association law, which holds for real
  entries.
-/
import proofs.«110598_j39676907883207_2_alg».proof.Proof.Gen.ReferenceIdeal.Read
import proofs.«110598_j39676907883207_2_alg».proof.Proof.AttnSpec
import proofs.«110598_j39676907883207_2_alg».proof.Proof.ReassocLaw
import proofs.«110598_j39676907883207_2_alg».proof.Proof.ScaleConsts

noncomputable section

namespace Cert.ReferenceIdeal.AttnBridge

open Cert.ReferenceIdeal Cert.ReferenceIdeal.Gen Cert.ReferenceIdeal.Read Idealize.ShloMosaic Idealize.ShloMosaic.TcCoe
open Idealize.ShloMosaic.ValueIdx Cert.AttnSpec
open scoped BigOperators

/-- The reference's result at an index, by coordinates: scores contracted over the features, scaled, then contracted
    with v over the positions. -/
theorem ref_apply (x0 x1 x2 : (⟨S8x2048x128, .f32⟩ : BufTy).Contents (Elt Ideal)) (i : S8x2048x128.Idx) :
    val_main_v3 (F := Ideal) x0 x1 x2 i
      = ∑ t : Fin 2048, ((∑ e : Fin 128, x0 (ix3 (i 0) (i 1) e) * x1 (ix3 (i 0) t e)) * Ideal.ofBits .f32 0x3E000000#32)
          * x2 (ix3 (i 0) t (i 2)) := by
  rw [val_main_v3_apply]
  refine Finset.sum_congr rfl fun t _ => ?_
  have eq : ∀ e : Fin 128, lidx_main_v0 (lidx_main_v3 i t) e = ix3 (i 0) (i 1) e := fun e =>
    funext fun a => by match a with | ⟨0, _⟩ => rfl | ⟨1, _⟩ => rfl | ⟨2, _⟩ => rfl
  have ek : ∀ e : Fin 128, ridx_main_v0 (lidx_main_v3 i t) e = ix3 (i 0) t e := fun e =>
    funext fun a => by match a with | ⟨0, _⟩ => rfl | ⟨1, _⟩ => rfl | ⟨2, _⟩ => rfl
  have ev : ridx_main_v3 i t = ix3 (i 0) t (i 2) :=
    funext fun a => by match a with | ⟨0, _⟩ => rfl | ⟨1, _⟩ => rfl | ⟨2, _⟩ => rfl
  rw [val_main_v2_apply, val_main_v0_apply, val_main_v1_apply, val_main_cst_apply, ev]
  simp only [eq, ek]
  show Ideal.div _ (Ideal.ofBits .f32 0x41000000#32) * _ = _
  rw [Cert.ScaleConsts.div_eight]
  rfl

/-- For real entries the kernel's array function is the reference's result. -/
theorem attnOut_eq_ref (q k v : (⟨S8x2048x128, .f32⟩ : BufTy).Contents (Elt Ideal))
    (hq : ∀ i, ∃ r : ℝ, q i = ((r : ℝ) : EReal)) (hk : ∀ i, ∃ r : ℝ, k i = ((r : ℝ) : EReal))
    (hv : ∀ i, ∃ r : ℝ, v i = ((r : ℝ) : EReal)) :
    attnOut q k v = val_main_v3 (F := Ideal) q k v := by
  choose q' hq' using hq
  choose k' hk' using hk
  choose v' hv' using hv
  funext i
  rw [ref_apply]
  unfold attnOut scaledKV
  rw [Cert.ScaleConsts.ofBits_eighth]
  simp only [hq', hk', hv']
  exact Cert.ReassocLaw.ereal_reassoc (fun e => q' (ix3 (i 0) (i 1) e)) (fun t e => k' (ix3 (i 0) t e))
    (fun t => v' (ix3 (i 0) t (i 2))) (1 / 8)

end Cert.ReferenceIdeal.AttnBridge

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.FiniteInputs.lean ====
/-
  The precondition, read: every entry of q, k and v is a real number.

  The precondition is the conjunction of three "all entries have absolute value below +∞" tests, one per argument array.
  Each conjunct makes every entry of its array a real; the re-association of the two products needs exactly that.
-/
import proofs.«110598_j39676907883207_2_alg».proof.Pre_finite_inputs
import proofs.«110598_j39676907883207_2_alg».proof.Proof.LibFiniteDecode
import Idealize.ShloMosaic.Lib.Affine

noncomputable section

namespace Cert.FiniteInputs

open Idealize.ShloMosaic Idealize.ShloMosaic.ValueIdx Cert.Pre_finite_inputs

variable [Cert.Pre_finite_inputs.Facts]

/-- If the precondition's function is all ones on (q, k, v), every entry of each of the three arrays is a real. -/
theorem real_of_pre (q k v : FVec Ideal S8x2048x128 .f32)
    (h : Cert.Pre_finite_inputs.fn (F := Ideal) q k v = fun _ => 1#1) :
    (∀ i, ∃ r : ℝ, q i = ((r : ℝ) : EReal)) ∧ (∀ i, ∃ r : ℝ, k i = ((r : ℝ) : EReal))
      ∧ (∀ i, ∃ r : ℝ, v i = ((r : ℝ) : EReal)) := by
  have h0 := congrFun h ix0
  dsimp only [Cert.Pre_finite_inputs.fn, andi] at h0
  obtain ⟨hqk, hv⟩ := IntOp.andi_eq_one.mp h0
  obtain ⟨hq, hk⟩ := IntOp.andi_eq_one.mp hqk
  exact ⟨Cert.LibFiniteDecode.real_of_all q _ _ _ hq, Cert.LibFiniteDecode.real_of_all k _ _ _ hk,
    Cert.LibFiniteDecode.real_of_all v _ _ _ hv⟩

end Cert.FiniteInputs

end
-- ==== Proof.lean ====
/-
  Scaled attention without the softmax: a kernel that re-associates two matrix products, against its reference.

  Arguments q, k, v of shape [8, 2048, 128] (batch, position, feature). The reference computes, per batch, the
  2048×2048 scores q·kᵀ, divides them by 8, and multiplies by v:

      ref (b, s, d) = Σ_t ((Σ_e q (b, s, e) · k (b, t, e)) / 8) · v (b, t, d).

  The kernel, two batches per grid point, computes the 128×128 matrix kᵀ·v first, scales it by 0.125, and multiplies q
  into it:

      out (b, s, d) = Σ_e q (b, s, e) · ((Σ_t k (b, t, e) · v (b, t, d)) · 0.125).

  At the exact instance every product into a zero accumulator is a plain sum and the two float words are the reals 1/8
  and 8. The two formulas are then c · Σ_e Σ_t q k v with the two sums in either order and the scale in either place:
  equal when the entries are real (the precondition), by distributivity and the exchange of two finite sums. At
  infinite entries distributivity fails on the extended reals, which is why the precondition is used.

  Parts: the kernel's stored value at an entry (KernelPayload), its blocks assembled into the whole array
  (KernelArray, over the generated frame and value leg), the reference's result by coordinates and the bridge
  (RefBridge, over the generated run and read lemmas), the law (ReassocLaw), the constants (ScaleConsts), the
  precondition read as "entries are real" (FiniteInputs). The idealization rewrote nothing, so its claim is trivial.
-/
import proofs.«110598_j39676907883207_2_alg».proof.Defs
import proofs.«110598_j39676907883207_2_alg».proof.Proof.Gen.Kernel
import proofs.«110598_j39676907883207_2_alg».proof.Proof.Gen.Kernel.Skeleton
import proofs.«110598_j39676907883207_2_alg».proof.Proof.Gen.Kernel.Launch
import proofs.«110598_j39676907883207_2_alg».proof.Proof.Gen.Kernel.Points
import proofs.«110598_j39676907883207_2_alg».proof.Proof.Gen.Kernel.Frame
import proofs.«110598_j39676907883207_2_alg».proof.Proof.Gen.KernelIdeal
import proofs.«110598_j39676907883207_2_alg».proof.Proof.Gen.KernelIdeal.Skeleton
import proofs.«110598_j39676907883207_2_alg».proof.Proof.Gen.KernelIdeal.Launch
import proofs.«110598_j39676907883207_2_alg».proof.Proof.Gen.KernelIdeal.Points
import proofs.«110598_j39676907883207_2_alg».proof.Proof.Gen.KernelIdeal.Frame
import proofs.«110598_j39676907883207_2_alg».proof.Proof.Gen.ReferenceIdeal
import proofs.«110598_j39676907883207_2_alg».proof.Proof.Gen.Pre_finite_inputs
import proofs.«110598_j39676907883207_2_alg».proof.Proof.Gen.KernelIdeal.Value
import proofs.«110598_j39676907883207_2_alg».proof.Proof.Gen.ReferenceIdeal.Run
import proofs.«110598_j39676907883207_2_alg».proof.Proof.Gen.ReferenceIdeal.Read
import proofs.«110598_j39676907883207_2_alg».proof.Proof.KernelArray
import proofs.«110598_j39676907883207_2_alg».proof.Proof.RefBridge
import proofs.«110598_j39676907883207_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves q, k, v unchanged. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference runs and leaves q, k, v unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same array: the kernel's is `attnOut` of q, k, v; the reference's is its own term of
    the same q, k, v; for real entries (the precondition) the two are one function. -/
theorem algebraic : Cert.algebraic_KernelIdeal_ReferenceIdeal := by
  intro m ρ m' ρ' hpre hagree
  refine ⟨_, Cert.KernelIdeal.AttnArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v3_eq]
  obtain ⟨hq, hk, hv⟩ := Cert.FiniteInputs.real_of_pre _ _ _ (hpre c)
  exact (Cert.ReferenceIdeal.AttnBridge.attnOut_eq_ref _ _ _ hq hk hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
